-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x8192x32 : Shape := ⟨3, ![128, 8192, 32]⟩
abbrev S_ : Shape := ⟨0, ![]⟩

class Facts : Prop where
  bcast_S_S128x8192x32 : S_.BroadcastsInDim S128x8192x32 (![] : Fin 0 → Fin S128x8192x32.rank)
  reducesTo_S128x8192x32_S_d0_1_2 : S128x8192x32.ReducesTo [0, 1, 2] S_
  h_S_ : 0 < S_.numel

variable [Facts]

def fn {F : FTy → Type} [FloatOps F] (main_arg0 : FVec F S128x8192x32 .f32) : IVec S_ 1 :=
  let main_v0 : FVec F S128x8192x32 .f32 := Host.absf main_arg0
  let main_cst : FVec F S_ .f32 := constant S_ .f32 0x7F800000#32
  let main_v1 : FVec F S128x8192x32 .f32 := broadcastInDim S128x8192x32 ![] bcast_S_S128x8192x32 main_cst
  let main_v2 : IVec S128x8192x32 1 := cmpf .olt main_v0 main_v1
  let main_c : IVec S_ 1 := constantI S_ 1 1#1
  let main_v3 : IVec S_ 1 := (fun x v => Host.reduce IntOp.andi x v reducesTo_S128x8192x32_S_d0_1_2 h_S_) main_v2 main_c
  main_v3
-- ==== Kernel.lean ====
abbrev S128x8192x32 : Shape := ⟨3, ![128, 8192, 32]⟩
abbrev S128x8192x2 : Shape := ⟨3, ![128, 8192, 2]⟩
abbrev S32x8192x2 : Shape := ⟨3, ![32, 8192, 2]⟩
abbrev S32x8192x1 : Shape := ⟨3, ![32, 8192, 1]⟩

abbrev nBuf : Space → Nat
  | .hbm => 2
  | .vmem => 2
  | .smem => 0
  | _ => 0

abbrev bufTy : (tb : Table) → Fin (tcTables nBuf tb) → BufTy
  | .hbm, ⟨0, _⟩ => ⟨S128x8192x32, .f32⟩
  | .hbm, ⟨1, _⟩ => ⟨S128x8192x2, .f32⟩
  | .local _ .vmem, ⟨0, _⟩ => ⟨S32x8192x2, .f32⟩
  | .local _ .vmem, ⟨1, _⟩ => ⟨S32x8192x2, .f32⟩
  | _, _ => ⟨S128x8192x32, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x8192x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

class Facts₀ : Prop where
  concatenates_S32x8192x1_S32x8192x1_S32x8192x2_d2 : Shape.Concatenates [S32x8192x1, S32x8192x1] S32x8192x2 2
  inb_S32x8192x2_S32x8192x2_0_0_0 : ∀ a, (![0, 0, 0] : Fin 3 → Nat) a + S32x8192x2.size a ≤ S32x8192x2.size a
  h_S32x8192x2 : 0 < S32x8192x2.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x8192x2.size a ≤ S128x8192x2.size a
  hwx0_0 : ∀ i : grid0.Coords, EltTy.bits .f32 = 32 ∨ (Rect.block (s := S128x8192x2) S32x8192x2.size (cc0_transform_0 i) (hinb0_0 i)).WholeWords (EltTy.packing .f32)

variable [Facts₀]

abbrev win0_0 : Pipeline.Window sig grid0 :=
  Pipeline.Window.ofSpec (Memref.whole main_v0) S32x8192x2.size cc0_transform_0 reads0_0 true false 2 stage0_0 sem0_0
    hrank0 hreads0_0 hinb0_0 nbuf0_0 (Memref.isWhole_whole _) hwx0_0 hstage0_0

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S128x8192x32 : Shape := ⟨3, ![128, 8192, 32]⟩
abbrev S2 : Shape := ⟨1, ![2]⟩
abbrev S128x8192x2 : Shape := ⟨3, ![128, 8192, 2]⟩

abbrev nBuf : Space → Nat
  | .hbm => 3
  | .vmem => 0
  | .smem => 0
  | _ => 0

abbrev bufTy : (tb : Table) → Fin (tcTables nBuf tb) → BufTy
  | .hbm, ⟨0, _⟩ => ⟨S128x8192x32, .f32⟩
  | .hbm, ⟨1, _⟩ => ⟨S2, .f32⟩
  | .hbm, ⟨2, _⟩ => ⟨S128x8192x2, .f32⟩
  | _, _ => ⟨S128x8192x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  bcast_S2_S128x8192x2_2 : S2.BroadcastsInDim S128x8192x2 (![2] : Fin 1 → Fin S128x8192x2.rank)

variable [Facts₀]

class Facts : Prop extends Facts₀ where

variable [Facts]
-- ==== Proof.LibPairFill.lean ====
/-
  A general lemma about laying two constant columns side by side.

  Let `x` and `y` be two values, each broadcast to a block of shape [A, B, 1]. Their concatenation along the last
  axis is a block of shape [A, B, 2]; read at an index (p, q, r) it is `x` when r = 0 and `y` when r = 1: the
  first piece occupies last coordinate 0, the second last coordinate 1, and a broadcast is the same value at
  every index. For any extents A and B and any element type.
-/
import Idealize.ShloMosaic.Lib.Pipeline.Value
import Idealize.ShloMosaic.Lib.ValueIdx

noncomputable section

namespace Cert.Layer.PairFill

open Idealize.ShloMosaic Idealize.ShloMosaic.ValueIdx

/-- The concatenation along the last axis of two constant [A, B, 1] blocks, read at an index: the first constant
    where the last coordinate is 0, the second where it is 1. -/
theorem concat_consts_apply {α : Type} {A B : Nat} (x y : α)
    (h : Shape.Concatenates [(⟨3, ![A, B, 1]⟩ : Shape), ⟨3, ![A, B, 1]⟩] ⟨3, ![A, B, 2]⟩ 2)
    (j : (⟨3, ![A, B, 2]⟩ : Shape).Idx) :
    concatenate ⟨3, ![A, B, 2]⟩ 2
        [⟨⟨3, ![A, B, 1]⟩, broadcast ⟨3, ![A, B, 1]⟩ x⟩, ⟨⟨3, ![A, B, 1]⟩, broadcast ⟨3, ![A, B, 1]⟩ y⟩] h j
      = if (j 2).val = 0 then x else y := by
  have hj : (j 2).val < 2 := (j 2).isLt
  by_cases h0 : (j 2).val = 0
  · rw [if_pos h0]
    exact concatenate_pair_apply_left 2 _ _ h j rfl (ix3 (j 0) (j 1) (0 : Fin 1))
      (fun b => by match b with | ⟨0, _⟩ => rfl | ⟨1, _⟩ => rfl | ⟨2, _⟩ => exact h0.symm)
  · rw [if_neg h0]
    exact concatenate_pair_apply_right 2 _ _ h j rfl rfl (ix3 (j 0) (j 1) (0 : Fin 1))
      (fun b hb => by match b, hb with | ⟨0, _⟩, _ => rfl | ⟨1, _⟩, _ => rfl | ⟨2, _⟩, hb => exact absurd rfl hb)
      (by show 0 + 1 = (j 2).val; omega)

end Cert.Layer.PairFill

end
-- ==== Proof.FillSpec.lean ====
/-
  The specification: what the result array holds, as one function of the index.

  The layer writes the pair (1.0, 2.0) at every position (b, n) of a [128, 8192] grid: the result has shape
  [128, 8192, 2] and its entry at (b, n, r) is the float whose 32-bit word is `word r` — the word of 1.0 at
  r = 0, of 2.0 at r = 1. The entry depends on the last coordinate only, and on no input.
-/
import Idealize.ShloMosaic.PureOps
import Idealize.ShloMosaic.Lib.ValueIdx

noncomputable section

namespace Cert.Fill

open Idealize.ShloMosaic

/-- The word stored where the last coordinate is `r`: IEEE single 1.0 (`0x3F800000`) at `r = 0`, 2.0 (`0x40000000`) otherwise. -/
def word (r : Nat) : BitVec 32 := if r = 0 then 0x3F800000#32 else 0x40000000#32

variable {F : FTy → Type} [FloatOps F]

/-- The result array: at (b, n, r) the float with word `word r`. -/
def fill : (⟨3, ![128, 8192, 2]⟩ : Shape).Idx → Elt F .f32 := fun i => FloatOps.ofBits .f32 (word (i 2).val)

theorem fill_apply (i : (⟨3, ![128, 8192, 2]⟩ : Shape).Idx) :
    fill (F := F) i = FloatOps.ofBits .f32 (word (i 2).val) := rfl

/-- Choosing between the two floats by the last coordinate is taking the float of the chosen word. -/
theorem ofBits_word (r : Nat) :
    (if r = 0 then FloatOps.ofBits (F := F) .f32 0x3F800000#32 else FloatOps.ofBits .f32 0x40000000#32)
      = FloatOps.ofBits .f32 (word r) := by
  unfold word; split <;> rfl

end Cert.Fill

end
-- ==== Proof.KernelPayload.lean ====
/-
  The kernel body's stored value, read at an index.

  The body builds two [32, 8192, 1] blocks, one holding the float 1.0 everywhere and one holding 2.0 everywhere,
  lays them side by side along the last axis and stores the [32, 8192, 2] result over its whole output block.
  Read at (p, q, r) the stored value is therefore the float whose word is `Fill.word r`: it depends on the
  last coordinate only. This holds at every float instance, since only the constants' denotation is used.
-/
import proofs.«123036_j53695681135139_1_alg».proof.Proof.Gen.KernelIdeal.Skeleton
import proofs.«123036_j53695681135139_1_alg».proof.Proof.LibPairFill
import proofs.«123036_j53695681135139_1_alg».proof.Proof.FillSpec

noncomputable section

namespace Cert.KernelIdeal.FillValue

open Cert.KernelIdeal Cert.KernelIdeal.Gen Idealize.ShloMosaic

variable {F : FTy → Type} [FloatOps F]

/-- The stored block at (p, q, r) is the float with word `word r`: the side-by-side pair of constant columns
    (`PairFill.concat_consts_apply`), then the choice between the two floats as the float of the chosen word. -/
theorem pay_apply (j : S32x8192x2.Idx) :
    k0_pay1 (F := F) j = FloatOps.ofBits .f32 (Cert.Fill.word (j 2).val) := by
  unfold k0_pay1
  exact (Cert.Layer.PairFill.concat_consts_apply (A := 32) (B := 8192) _ _ _ j).trans (Cert.Fill.ofBits_word _)

end Cert.KernelIdeal.FillValue

end
-- ==== Proof.KernelValue.lean ====
/-
  From the kernel's blocks to its whole result array.

  The grid has 4 points; point t owns the block of rows 32·t … 32·t + 31 of the first axis, whole in the other
  two axes. At every point the body stores the same block: the float with word `Fill.word r` at (p, q, r)
  (`pay_apply`). Because that value depends on the last coordinate only, and a block keeps the last coordinate
  of the array (its offset on that axis is 0), what point t writes back is block t of the one array `Fill.fill`.
  The four blocks cover the array — row b lies in the block of point b / 32 — so after the run the result
  array is `Fill.fill`, at every float instance.
-/
import proofs.«123036_j53695681135139_1_alg».proof.Proof.KernelIdealFrame
import proofs.«123036_j53695681135139_1_alg».proof.Proof.KernelPayload
import Idealize.ShloMosaic.Lib.Pipeline.Value

noncomputable section

namespace Cert.KernelIdeal.FillValue

open Cert.KernelIdeal Cert.KernelIdeal.Gen Cert.KernelIdeal.GenP Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The store's offsets are all zero. -/
theorem offs_zero : (![0, 0, 0] : Fin 3 → Nat) = fun _ => 0 := funext fun a => by fin_cases a <;> rfl

/-- The body's one store covers its whole block, so the block after the body is the stored value. -/
theorem out_eq : out0_0 (F := F) = k0_pay1 (F := F) := by
  unfold out0_0
  rw [View.canon_unit_zero offs_zero]

/-- The block of grid point t starts at row-block t of the first axis and at 0 on the other two (decided over
    the 4 points). -/
theorem block_index : ∀ t : Fin cfg0.N, win0_0.index t (0 : Fin 3) = t.val
    ∧ win0_0.index t (1 : Fin 3) = 0 ∧ win0_0.index t (2 : Fin 3) = 0 :=
  (by decide +kernel : ∀ t : Fin grid0.N, _)

/-- What point t writes back is block t of the specification. -/
theorem flushed_eq (c : Dev nD) (t : Fin cfg0.N) :
    (dats m 0 c).flushed 0 t = ((cfg0.win 0).blk t).view.read (Elt F) (Cert.Fill.fill (F := F)) := by
  show (cfg0.win 0).cut (grid0.coords t) ((dats m 0 c).after 0 t) = _
  rw [after0_0, out_eq]
  obtain ⟨e0, e1, e2⟩ := block_index t
  funext j
  show k0_pay1 (F := F) j = Cert.Fill.fill (((cfg0.win 0).blk t).view.emb j)
  refine (pay_apply (F := F) j).trans ?_
  rw [Cert.Fill.fill_apply]
  refine congrArg (fun r => FloatOps.ofBits .f32 (Cert.Fill.word r)) ?_
  show (j 2).val = win0_0.index t (2 : Fin 3) * 2 + 1 * (j 2).val
  omega

/-- An index of the array is in point t's block iff each coordinate is in the block's range on its axis. -/
theorem mem_block (t : Fin cfg0.N) (i : S128x8192x2.Idx) :
    i ∈ ((cfg0.win 0).blk t).view.set ↔ ∀ a : Fin 3, win0_0.index t a * S32x8192x2.size a ≤ (i a).val
      ∧ (i a).val < win0_0.index t a * S32x8192x2.size a + S32x8192x2.size a := by
  show i ∈ ((View.whole main_v0).slice (win0_0.rect t)).set ↔ _
  rw [View.set_slice_whole, Rect.mem_set_unit]
  exact Iff.rfl

/-- Every index of the array lies in the block of the point its first coordinate selects: row b is in block b / 32. -/
theorem covered (i : S128x8192x2.Idx) :
    ∃ t : Fin cfg0.N, (cfg0.win 0).flush t = true ∧ i ∈ ((cfg0.win 0).blk t).view.set := by
  have h0 : (i 0).val < 128 := (i 0).isLt
  have h1 : (i 1).val < 8192 := (i 1).isLt
  have h2 : (i 2).val < 2 := (i 2).isLt
  have hN : (i 0).val / 32 < cfg0.N := by
    show (i 0).val / 32 < grid0.N
    rw [N_0]; omega
  obtain ⟨e0, e1, e2⟩ := block_index ⟨(i 0).val / 32, hN⟩
  have e0' : win0_0.index ⟨(i 0).val / 32, hN⟩ (0 : Fin 3) = (i 0).val / 32 := e0
  refine ⟨⟨(i 0).val / 32, hN⟩, flush0_0 _, ?_⟩
  rw [mem_block]
  intro a
  match a with
  | ⟨0, _⟩ =>
    show win0_0.index ⟨(i 0).val / 32, hN⟩ (0 : Fin 3) * 32 ≤ (i 0).val
      ∧ (i 0).val < win0_0.index ⟨(i 0).val / 32, hN⟩ (0 : Fin 3) * 32 + 32
    omega
  | ⟨1, _⟩ =>
    show win0_0.index ⟨(i 0).val / 32, hN⟩ (1 : Fin 3) * 8192 ≤ (i 1).val
      ∧ (i 1).val < win0_0.index ⟨(i 0).val / 32, hN⟩ (1 : Fin 3) * 8192 + 8192
    omega
  | ⟨2, _⟩ =>
    show win0_0.index ⟨(i 0).val / 32, hN⟩ (2 : Fin 3) * 2 ≤ (i 2).val
      ∧ (i 2).val < win0_0.index ⟨(i 0).val / 32, hN⟩ (2 : Fin 3) * 2 + 2
    omega

/-- After the run the result array is the specification. -/
theorem final (c : Dev nD) : (dats m 0 c).arrAt 0 cfg0.N = Cert.Fill.fill (F := F) :=
  (dats m 0 c).arrAt_eq_of_cover 0 (Cert.Fill.fill (F := F)) (fun t _ => flushed_eq m c t) covered

/-- The kernel's run: every weakly fair execution terminates, with the result buffer at the specification and the
    argument as launched (no window stages it, and the run leaves the region's other buffers as they were). -/
theorem run : θ_run defs (onTc (τ := τ) (main (F := F))) ⟨m, fun _ => 0, ρ⟩ fun r => ∀ c : Dev nD,
      r.2.mem ((c : Thread nD τ).loc main_v0) = Cert.Fill.fill (F := F)
      ∧ r.2.mem ((c : Thread nD τ).loc main_arg0) = m ((c : Thread nD τ).loc main_arg0) :=
  (θ_run defs _ _).mono (fun r h c => ⟨((h c).1 0).trans (final m c),
      ((h c).2 main_arg0 (Pipeline.mem_restRefs_of main_arg0 (by decide) (by decide))).trans (V_main_arg0 m c)⟩)
    (run_main m ρ)

end Cert.KernelIdeal.FillValue

end
-- ==== Proof.ReferenceRun.lean ====
/-
  The reference program's run, and its result as the specification.

  The reference is two host operations: a literal table of the two floats (1.0, 2.0), of shape [2], and its
  broadcast to [128, 8192, 2] along the last axis. So every weakly fair execution terminates with the result
  buffer holding, at (b, n, r), entry r of the table — the float with word `Fill.word r` — and the argument
  unchanged (no operation writes it).
-/
import proofs.«123036_j53695681135139_1_alg».proof.Proof.Gen.ReferenceIdeal
import proofs.«123036_j53695681135139_1_alg».proof.Proof.FillSpec
import Idealize.ShloMosaic.Lib.StableHlo.Run
import Idealize.ShloMosaic.Lib.Pipeline.Value
import Idealize.ShloMosaic.Lib.ValueIdx

noncomputable section

namespace Cert.ReferenceIdeal.FillRun

open Cert.ReferenceIdeal Cert.ReferenceIdeal.Gen Idealize.ShloMosaic Idealize.ShloMosaic.TcCoe Idealize.SL.Sem
open Idealize.ShloMosaic.StableHlo Idealize.ShloMosaic.ValueIdx

variable {F : FTy → Type} [FloatOps F]

/-- The literal table as an array of shape [2]: entry i is the float of the i-th listed word. -/
abbrev table : (⟨S2, .f32⟩ : BufTy).Contents (Elt F) := fun i => FloatOps.ofBits .f32 (lit0 (S2.rowMajor i))

/-- The program's two operations, in order: the table, then its broadcast along the last axis. -/
abbrev ops : List (HloOp τ sig (Elt F)) :=
  [ nullary main_cst (table (F := F)),
    unary main_cst main_v0 (broadcastInDim S128x8192x2 ![2] bcast_S2_S128x8192x2_2 : (⟨S2, .f32⟩ : BufTy).Contents (Elt F) → (⟨S128x8192x2, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub ..⟩

/-- Every weakly fair execution of the program terminates, with the result buffer at the broadcast table and
    the argument as launched. -/
theorem run_ops (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0) = broadcastInDim S128x8192x2 ![2] bcast_S2_S128x8192x2_2 (table (F := F))
      ∧ r.2.mem ((c.tc : Thread nD τ).loc main_arg0) = m ((c.tc : Thread nD τ).loc main_arg0) :=
  (θ_run defs _ _).mono (fun _ h c => ⟨(h c main_v0).trans (by after_results),
      (h c main_arg0).trans (by after_results)⟩)
    (run_seq scopedRefs_eq scopedSems_eq defs main (fun _ => ops) main_eq (fun _ => ops_sub) m ρ)

/-- Each listed word is the specification's word at its position. -/
theorem lit_word : ∀ q : Fin 2, lit0 q = Cert.Fill.word q.val := by decide

/-- The broadcast table is the specification: at (b, n, r) it reads the table at r, whose word is `word r`. -/
theorem table_bcast_eq (h : S2.BroadcastsInDim S128x8192x2 (![2] : Fin 1 → Fin S128x8192x2.rank)) :
    broadcastInDim S128x8192x2 ![2] h (table (F := F)) = Cert.Fill.fill := by
  funext j
  refine (broadcastInDim_apply ![2] h (table (F := F)) j (ix1 (n := 2) (j 2))
    (fun a => by match a with | ⟨0, _⟩ => rfl)).trans ?_
  exact congrArg (FloatOps.ofBits .f32)
    ((lit_word _).trans (congrArg Cert.Fill.word (Shape.rowMajor_val_one (d := ![2]) (ix1 (n := 2) (j 2)))))

/-- The reference's run with its result stated as the specification. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0) = Cert.Fill.fill
      ∧ r.2.mem ((c.tc : Thread nD τ).loc main_arg0) = m ((c.tc : Thread nD τ).loc main_arg0) :=
  (θ_run defs _ _).mono (fun _ h c => ⟨(h c).1.trans (table_bcast_eq _), (h c).2⟩) (run_ops m ρ)

end Cert.ReferenceIdeal.FillRun

end
-- ==== Proof.lean ====
/-
  The layer writes the constant pair (1.0, 2.0) at every position of a [128, 8192] grid: its result has shape
  [128, 8192, 2] and does not read the input's values. The kernel fills the result block by block — 4 blocks of
  32 rows, each the side-by-side pair of a column of 1.0 and a column of 2.0 —, the reference broadcasts the
  two-entry table (1.0, 2.0) along the last axis. Both results are ONE array, `Cert.Fill.fill`: at (b, n, r) the
  float whose word is that of 1.0 for r = 0 and of 2.0 for r = 1. The two programs use the same two words, so
  the equality needs no arithmetic and no finiteness of the input: the precondition is never opened.

    * the kernel's run ends with the result at `fill`:        Proof/KernelPayload.lean, Proof/KernelValue.lean
    * the reference's run ends with the result at `fill`:     Proof/ReferenceRun.lean
    * the three frames: the kernels' from their frame runs (Proof/KernelFrame.lean, Proof/KernelIdealFrame.lean),
      the reference's from its run with the result forgotten
    * the idealization rewrote nothing, so `preserves` is `True`.
-/
import proofs.«123036_j53695681135139_1_alg».proof.Defs
import proofs.«123036_j53695681135139_1_alg».proof.Proof.Gen.Kernel
import proofs.«123036_j53695681135139_1_alg».proof.Proof.Gen.KernelIdeal
import proofs.«123036_j53695681135139_1_alg».proof.Proof.Gen.ReferenceIdeal
import proofs.«123036_j53695681135139_1_alg».proof.Proof.Gen.Pre_finite_inputs
import proofs.«123036_j53695681135139_1_alg».proof.Proof.KernelFrame
import proofs.«123036_j53695681135139_1_alg».proof.Proof.KernelIdealFrame
import proofs.«123036_j53695681135139_1_alg».proof.Proof.KernelValue
import proofs.«123036_j53695681135139_1_alg».proof.Proof.ReferenceRun
import Idealize.ShloMosaic.Adequacy
import Idealize.ShloMosaic.Init

noncomputable section

namespace Cert.Proof

open Idealize.ShloMosaic Idealize.SL.Sem

/-- The word-level kernel runs and leaves its argument as it was. -/
theorem frame_kernel : Cert.frame_Kernel := fun m ρ _ => Cert.Kernel.GenP.frame m ρ

/-- So does the idealized kernel. -/
theorem frame_kernel_ideal : Cert.frame_KernelIdeal := fun m ρ _ => Cert.KernelIdeal.GenP.frame m ρ

/-- The reference runs and leaves its argument as it was: its run, the result forgotten. -/
theorem frame_reference : Cert.frame_ReferenceIdeal := fun m ρ _ =>
  (θ_run Cert.ReferenceIdeal.defs _ _).mono (fun _ h c => (h c).2) (Cert.ReferenceIdeal.FillRun.run (F := Ideal) m ρ)

/-- The idealization rewrote no operation. -/
theorem preserves : Cert.preserves_Kernel_KernelIdeal := trivial

/-- Both idealized programs end with the result array at `fill`, whatever the argument holds. -/
theorem algebraic : Cert.algebraic_KernelIdeal_ReferenceIdeal := fun m ρ m' ρ' _ _ =>
  ⟨fun _ => Cert.Fill.fill (F := Ideal), Cert.KernelIdeal.FillValue.run (F := Ideal) m ρ,
    Cert.ReferenceIdeal.FillRun.run (F := Ideal) m' ρ'⟩

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
